-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S256 : Shape := ⟨1, ![256]⟩
abbrev S500000 : Shape := ⟨1, ![500000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x256 .f32) (main_arg1 : FVec F S256x256 .f32) (main_arg2 : FVec F S256x256 .f32) (main_arg3 : FVec F S256x256 .f32) (main_arg4 : FVec F S256 .f32) (main_arg5 : IVec S500000 32) (main_arg6 : IVec S500000 32) (main_arg7 : IVec S500000 32) (main_arg8 : IVec S500000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S100000x256 : Shape := ⟨2, ![100000, 256]⟩
abbrev S256x256 : Shape := ⟨2, ![256, 256]⟩
abbrev S256 : Shape := ⟨1, ![256]⟩
abbrev S500000 : Shape := ⟨1, ![500000]⟩
abbrev S2000x256 : Shape := ⟨2, ![2000, 256]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩

abbrev nBuf : Space → Nat
  | .hbm => 40
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S100000x256, .f32⟩
  | .hbm, ⟨10, _⟩ => ⟨S100000x256, .f32⟩
  | .hbm, ⟨11, _⟩ => ⟨S100000x256, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x256, .f32⟩
  | .hbm, ⟨21, _⟩ => ⟨S_, .f32⟩
  | .hbm, ⟨22, _⟩ => ⟨S100000x256, .f32⟩
  | .hbm, ⟨23, _⟩ => ⟨S500000x1, .i32⟩
  | .hbm, ⟨24, _⟩ => ⟨S100000x256, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x256, .f32⟩
  | .hbm, ⟨34, _⟩ => ⟨S_, .f32⟩
  | .hbm, ⟨35, _⟩ => ⟨S100000x256, .f32⟩
  | .hbm, ⟨36, _⟩ => ⟨S500000x1, .i32⟩
  | .hbm, ⟨37, _⟩ => ⟨S100000x256, .f32⟩
  | .hbm, ⟨38, _⟩ => ⟨S1x256, .f32⟩
  | .hbm, ⟨39, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S500000 : S_.BroadcastsInDim S500000 (![] : Fin 0 → Fin S500000.rank)
  bcast_S500000_S500000x1_0 : S500000.BroadcastsInDim S500000x1 (![0] : Fin 1 → Fin S500000x1.rank)
  bcast_S_S100000x256 : S_.BroadcastsInDim S100000x256 (![] : Fin 0 → Fin S100000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x256_S2000x256_1_0_0_1_n_n_wf : DotDims.WF S2000x256 S256x256 S2000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S256 : Shape := ⟨1, ![256]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S500000, .i32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S100000x256, .f32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x256, .f32⟩
  | .hbm, ⟨23, _⟩ => ⟨S_, .f32⟩
  | .hbm, ⟨24, _⟩ => ⟨S100000x256, .f32⟩
  | .hbm, ⟨25, _⟩ => ⟨S500000x1, .i32⟩
  | .hbm, ⟨26, _⟩ => ⟨S100000x256, .f32⟩
  | .hbm, ⟨27, _⟩ => ⟨S100000x256, .f32⟩
  | .hbm, ⟨28, _⟩ => ⟨S100000x256, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x256, .f32⟩
  | .hbm, ⟨38, _⟩ => ⟨S_, .f32⟩
  | .hbm, ⟨39, _⟩ => ⟨S100000x256, .f32⟩
  | .hbm, ⟨40, _⟩ => ⟨S500000x1, .i32⟩
  | .hbm, ⟨41, _⟩ => ⟨S100000x256, .f32⟩
  | .hbm, ⟨42, _⟩ => ⟨S100000x256, .f32⟩
  | .hbm, ⟨43, _⟩ => ⟨S1x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .f32⟩
  | .hbm, ⟨50, _⟩ => ⟨S100000x256, .f32⟩
  | .hbm, ⟨51, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S_S500000 : S_.BroadcastsInDim S500000 (![] : Fin 0 → Fin S500000.rank)
  bcast_S500000_S500000x1_0 : S500000.BroadcastsInDim S500000x1 (![0] : Fin 1 → Fin S500000x1.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x256_S100000x256_1_0_0_1_n_n_wf : DotDims.WF S100000x256 S256x256 S100000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf

class Facts : Prop extends Facts₀ where

variable [Facts]
-- ==== Proof.RunNamed.lean ====
/-
  The kernel program's run with its RESULT array named.

  The program is two pipelined regions with a stretch of host operations between them. Its frame run
  follows the buffer contents from segment to segment: `W0` at launch, `W1` after the first region
  (its three output arrays at what their write-backs leave), `W2` after the host stretch, `W3` after
  the second region. Read at the end, every unscoped buffer holds `W3`; the frame claim reads only the
  nine arguments there. Here the same run is read at one more buffer, the result: it ends at
  `W3` of the result buffer, which is the second region's output array after its last write-back.
-/
import proofs.«103481_j49606872269197_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the second region the result buffer holds that region's output array after its last write-back. -/
theorem W3_result (c : Dev nD) :
    W3 m ρ c (Proc.devRef .tc main_v22) = (dat1 (V2 m ρ) c).arrAt 4 cfg1.N :=
  W3_arr m ρ c 4

set_option backward.isDefEq.respectTransparency.types false in
/-- Every weakly fair execution of the program terminates without a fault; the result buffer ends at the second
    region's output array after its last write-back, and the nine arguments end as launched. -/
theorem run : θ_run defs (onTc (τ := τ) (main (F := F))) ⟨m, fun _ => 0, ρ⟩ (fun r => ∀ c : Dev nD,
      r.2.mem ((c.tc : Thread nD τ).loc main_v22) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v22 (by decide))).trans (W3_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.RunValue

end
-- ==== Proof.Layer.lean ====
/-
  The graph layer that both programs compute, written once as a function of the nine argument arrays over
  the extended reals.

  With node features x : [100000, 256], a self weight and two relation weights W : [256, 256], a bias
  b : [256] and, per relation r, edge lists src_r, dst_r : [500000],

      out[n, d] = max (max (1.1 · (x·W_self)[n, d] + A₁[n, d] + A₂[n, d] + b[d]) 0) 0,

  where the messages of relation r are the rows of x·W_r, and A_r[n, ·] adds up the message rows
  (x·W_r)[src_r[e], ·] over the edges e with dst_r[e] = n. A negative source index counts from the end
  (src + 100000), which is the first step of the aggregation. The aggregation itself (a row gather
  followed by a scatter that adds into zeros) is kept as ONE function `aggregate` of the message array
  and the two edge lists: both programs apply the same function, and nothing in the argument opens it.
-/
import proofs.«103481_j49606872269197_1_alg».proof.ReferenceIdeal
import Idealize.ShloMosaic.PureOps.Ideal

noncomputable section

namespace Cert.Layer

open Idealize.ShloMosaic Cert.ReferenceIdeal Cert.ReferenceIdeal.Facts₀

variable [Cert.ReferenceIdeal.Facts]

/-- The node-feature arrays [100000, 256], the weight matrices [256, 256], the bias [256] and the edge
    lists [500000], as the programs hold them at the ideal values. -/
abbrev Feat : Type := FVec Ideal S100000x256 .f32
abbrev Weight : Type := FVec Ideal S256x256 .f32
abbrev Bias : Type := FVec Ideal S256 .f32
abbrev Edges : Type := IVec S500000 32

/-- The matrix product x·W: entry (n, d) is the sum over k of x[n, k] · W[k, d]. -/
def project (x : Feat) (W : Weight) : Feat :=
  Host.dotGeneral (F := Ideal) dot_S100000x256_S256x256_S100000x256_1_0_0_1_n_n none x W

/-- The zero array the aggregation adds into, and the zero the rectifier compares with. -/
def zeros : Feat :=
  broadcastInDim S100000x256 ![] bcast_S_S100000x256 (constant (F := Ideal) S_ .f32 0x00000000#32)

/-- Row n of the result adds up the message rows msg[src[e], ·] over the edges e with dst[e] = n
    (a negative src[e] read as src[e] + 100000): the rows gathered along `src`, then added into zeros
    at `dst`. -/
def aggregate (msg : Feat) (src dst : Edges) : Feat :=
  Host.scatterAdd (F := Ideal) scatter_S100000x256_S500000x1_S500000x256_1_0_0_1 zeros
    (broadcastInDim S500000x1 ![0] bcast_S500000_S500000x1_0 dst)
    (Host.gather gather_S100000x256_S500000x1_S500000x256_1_0_n_n_0_1_1256 msg
      (broadcastInDim S500000x1 ![0] bcast_S500000_S500000x1_0
        (select (cmpi .slt src (broadcastInDim S500000 ![] bcast_S_S500000 (constantI S_ 32 0#32)))
          (addi src (broadcastInDim S500000 ![] bcast_S_S500000 (constantI S_ 32 100000#32))) src)))

/-- The self term 1.1 · (x·W_self); the factor is the f32 nearest to 1.1, the same word in both programs. -/
def selfTerm (x : Feat) (W : Weight) : Feat :=
  mulf (broadcastInDim S100000x256 ![] bcast_S_S100000x256 (constant (F := Ideal) S_ .f32 0x3F8CCCCD#32)) (project x W)

/-- The bias laid along the rows: entry (n, d) is b[d]. -/
def biasRows (b : Bias) : Feat :=
  broadcastInDim S100000x256 ![0, 1] bcast_S1x256_S100000x256_0_1 (broadcastInDim S1x256 ![1] bcast_S256_S1x256_1 b)

/-- The layer: the self term, the two aggregated relations and the bias added in this order, rectified twice. -/
def layer (x : Feat) (Ws W1 W2 : Weight) (b : Bias) (src1 dst1 src2 dst2 : Edges) : Feat :=
  maximumf (maximumf
    (addf (addf (addf (selfTerm x Ws) (aggregate (project x W1) src1 dst1)) (aggregate (project x W2) src2 dst2)) (biasRows b))
    zeros) zeros

end Cert.Layer

end
-- ==== Proof.Products.lean ====
/-
  The first region, read as three functions of the four arrays it finds.

  Its grid has 50 points; point t takes rows 2000·t … 2000·t + 1999 of the feature array x : [100000, 256] and
  the three whole weight matrices [256, 256], and writes back the same rows of three output arrays. Entry (p, q)
  of each output block is a matrix product of the feature block with a weight matrix into a zero accumulator —
  on the extended reals the plain sum over k of x[2000·t + p, k] · W[k, q], the change of format on the way in
  being the identity — and the first output is scaled by the constant 1.1 (its f32 word). The blocks tile the
  output arrays, so after the last write-back each array is, at every index (n, d), the scaled or plain sum over k
  of x[n, k] · W[k, d].
-/
import proofs.«103481_j49606872269197_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Products

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The indices a product reads -/

/-- In the feature array: the row of `i`, column `k`. -/
abbrev rowAt (i : S100000x256.Idx) (k : Fin 256) : S100000x256.Idx := fun a => match a with
  | ⟨0, _⟩ => ⟨(i 0).val, (i 0).isLt⟩
  | ⟨1, _⟩ => ⟨k.val, k.isLt⟩
/-- In a weight matrix: row `k`, the column of `i`. -/
abbrev colAt (i : S100000x256.Idx) (k : Fin 256) : S256x256.Idx := fun a => match a with
  | ⟨0, _⟩ => ⟨k.val, k.isLt⟩
  | ⟨1, _⟩ => ⟨(i 1).val, (i 1).isLt⟩
/-- The same inside a block of 2000 rows. -/
abbrev rowIn (y : S2000x256.Idx) (k : Fin 256) : S2000x256.Idx := fun a => match a with
  | ⟨0, _⟩ => ⟨(y 0).val, (y 0).isLt⟩
  | ⟨1, _⟩ => ⟨k.val, k.isLt⟩
abbrev colIn (y : S2000x256.Idx) (k : Fin 256) : S256x256.Idx := fun a => match a with
  | ⟨0, _⟩ => ⟨k.val, k.isLt⟩
  | ⟨1, _⟩ => ⟨(y 1).val, (y 1).isLt⟩

/-- The product x·W at an index: the sum over k of x[n, k] · W[k, d]. -/
def product (X : S100000x256.Idx → EReal) (W : S256x256.Idx → EReal) : S100000x256.Idx → EReal :=
  fun i => ∑ k : Fin 256, X (rowAt i k) * W (colAt i k)

/-- The product scaled by the f32 word of 1.1. -/
def scaledProduct (X : S100000x256.Idx → EReal) (W : S256x256.Idx → EReal) : S100000x256.Idx → EReal :=
  fun i => Ideal.ofBits .f32 0x3F8CCCCD#32 * product X W i

/-! ## The block product at an index -/

theorem lhs_0 (j : S2000x256.Idx) (q : dot_S2000x256_S256x256_S2000x256_1_0_0_1_n_n.contr.Idx) :
    (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_1 (j : S2000x256.Idx) (q : dot_S2000x256_S256x256_S2000x256_1_0_0_1_n_n.contr.Idx) :
    (dot_S2000x256_S256x256_S2000x256_1_0_0_1_n_n.lhsIdx j q 1).val = (q ⟨0, by decide⟩).val :=
  dot_S2000x256_S256x256_S2000x256_1_0_0_1_n_n.lhsIdx_val_of_single rfl j q
theorem rhs_0 (j : S2000x256.Idx) (q : dot_S2000x256_S256x256_S2000x256_1_0_0_1_n_n.contr.Idx) :
    (dot_S2000x256_S256x256_S2000x256_1_0_0_1_n_n.rhsIdx j q 0).val = (q ⟨0, by decide⟩).val :=
  dot_S2000x256_S256x256_S2000x256_1_0_0_1_n_n.rhsIdx_val_of_single rfl j q
theorem rhs_1 (j : S2000x256.Idx) (q : dot_S2000x256_S256x256_S2000x256_1_0_0_1_n_n.contr.Idx) :
    (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block's matrix product into the zero accumulator, at entry `j`: the sum over k of the two factors. -/
theorem matmul_zero_apply (l : FVec Ideal S2000x256 .bf16) (r : FVec Ideal S256x256 .bf16) (j : S2000x256.Idx) :
    matmul dot_S2000x256_S256x256_S2000x256_1_0_0_1_n_n none l r (constant S2000x256 .f32 0x00000000#32) j
      = ∑ k : Fin 256, l (rowIn j k) * r (colIn j k) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = rowIn j k := funext fun a => Fin.ext (by
    match a with
    | ⟨0, _⟩ => exact lhs_0 _ _
    | ⟨1, _⟩ => exact (lhs_1 _ _).trans hk)
  have er : dot_S2000x256_S256x256_S2000x256_1_0_0_1_n_n.rhsIdx j ((ValueIdx.contrEquiv1 dot_S2000x256_S256x256_S2000x256_1_0_0_1_n_n 256 rfl rfl).symm k) = colIn j k := funext fun a => Fin.ext (by
    match a with
    | ⟨0, _⟩ => exact (rhs_0 _ _).trans hk
    | ⟨1, _⟩ => exact rhs_1 _ _)
  rw [el, er]

/-! ## The three payloads at an entry of a block -/

/-- A plain output's payload at entry `y`, when the feature block's row of `y` and the weight's column of `y` are
    known as the row and the column of an array index `i`: the product at `i`. -/
theorem k0_pay3_eq (x0 : Vec Ideal S2000x256 .f32) (w : Vec Ideal S256x256 .f32)
    (X : S100000x256.Idx → EReal) (W : S256x256.Idx → EReal) (y : S2000x256.Idx) (i : S100000x256.Idx)
    (ex : ∀ k : Fin 256, x0 (rowIn y k) = X (rowAt i k)) (ew : ∀ k : Fin 256, w (colIn y k) = W (colAt i k)) :
    k0_pay3 x0 w y = product X W i := by
  unfold k0_pay3 k0_pay1
  refine (matmul_zero_apply _ _ y).trans ?_
  unfold product
  refine Finset.sum_congr rfl fun k _ => ?_
  show x0 (rowIn y k) * w (colIn y k) = _
  rw [ex k, ew k]

theorem k0_pay4_eq (x0 : Vec Ideal S2000x256 .f32) (w : Vec Ideal S256x256 .f32)
    (X : S100000x256.Idx → EReal) (W : S256x256.Idx → EReal) (y : S2000x256.Idx) (i : S100000x256.Idx)
    (ex : ∀ k : Fin 256, x0 (rowIn y k) = X (rowAt i k)) (ew : ∀ k : Fin 256, w (colIn y k) = W (colAt i k)) :
    k0_pay4 x0 w y = product X W i := by
  unfold k0_pay4 k0_pay1
  refine (matmul_zero_apply _ _ y).trans ?_
  unfold product
  refine Finset.sum_congr rfl fun k _ => ?_
  show x0 (rowIn y k) * w (colIn y k) = _
  rw [ex k, ew k]

/-- The scaled output's payload: the constant times the same sum. -/
theorem k0_pay2_eq (x0 : Vec Ideal S2000x256 .f32) (w : Vec Ideal S256x256 .f32)
    (X : S100000x256.Idx → EReal) (W : S256x256.Idx → EReal) (y : S2000x256.Idx) (i : S100000x256.Idx)
    (ex : ∀ k : Fin 256, x0 (rowIn y k) = X (rowAt i k)) (ew : ∀ k : Fin 256, w (colIn y k) = W (colAt i k)) :
    k0_pay2 x0 w y = scaledProduct X W i := by
  unfold k0_pay2 k0_pay1
  show Ideal.ofBits .f32 0x3F8CCCCD#32 * matmul dot_S2000x256_S256x256_S2000x256_1_0_0_1_n_n none (truncf .bf16 x0 bitsLt_bf16_f32) (truncf .bf16 w bitsLt_bf16_f32) (constant S2000x256 .f32 0x00000000#32) y = _
  rw [matmul_zero_apply]
  unfold scaledProduct product
  refine congrArg (Ideal.ofBits .f32 0x3F8CCCCD#32 * ·) (Finset.sum_congr rfl fun k _ => ?_)
  show x0 (rowIn y k) * w (colIn y k) = _
  rw [ex k, ew k]

/-! ## From the blocks to the arrays -/

variable (V : (c : Dev nD) → (b : Ref sig .tc) → Buf (Elt Ideal) ((c : Thread nD τ).loc b))

/-- The printed index maps over the grid: at point t the feature window and the three output windows are at
    block (t, 0), the three weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to output 1 is block t of the scaled product of the feature array with weight matrix 1. -/
theorem flushed_eq4 (c : Dev nD) (t : Fin cfg0.N) :
    (dat0 V c).flushed 4 t = ((cfg0.win 4).blk t).view.read (Elt Ideal) (scaledProduct (V c main_arg0) (V c main_arg1)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x256) hz]
  obtain ⟨f00, f01, f10, f11, f20, f21, f30, f31, f40, f41, f50, f51, f60, f61⟩ := idx_facts t
  funext j
  refine k0_pay2_eq (iblk0 V c 0 t) (iblk0 V c 1 t) (V c main_arg0) (V c main_arg1) j (((cfg0.win 4).blk t).view.emb j) (fun k => ?_) (fun k => ?_)
  · show V c main_arg0 (((cfg0.win 0).blk t).view.emb (rowIn j k)) = V c main_arg0 (rowAt (((cfg0.win 4).blk t).view.emb j) k)
    refine congrArg (V c main_arg0) (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 256 + 1 * k.val = k.val; omega
  · show V c main_arg1 (((cfg0.win 1).blk t).view.emb (colIn j k)) = V c main_arg1 (colAt (((cfg0.win 4).blk t).view.emb j) k)
    refine congrArg (V c main_arg1) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_4.index t (1 : Fin 2) * 256 + 1 * (j 1).val; omega

/-- An index of output array 1 lies in point t's block iff, on each axis, it lies in the block's range. -/
theorem mem_blk4 (t : Fin cfg0.N) (i : S100000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v0_0).slice (win0_4.rect t)).set ↔ _
  rw [View.set_slice_whole, Rect.mem_set_unit]
  exact Iff.rfl

/-- Row n lies in the block of point n / 2000, which is written back. -/
theorem covered4 (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨f00, f01, f10, f11, f20, f21, f30, f31, f40, f41, f50, f51, f60, f61⟩ := idx_facts t
  refine ⟨t, flush0_4 t, ?_⟩
  rw [mem_blk4]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 256 ≤ (i 1).val ∧ (i 1).val < win0_4.index t (1 : Fin 2) * 256 + 256
    omega

/-- After the last write-back output array 1 is the scaled product of the feature array with weight matrix 1. -/
theorem output_self (c : Dev nD) :
    (dat0 V c).arrAt 4 cfg0.N = scaledProduct (V c main_arg0) (V c main_arg1) :=
  (dat0 V c).arrAt_eq_of_cover 4 _ (fun t _ => flushed_eq4 V c t) covered4

/-- What point t writes back to output 2 is block t of the product of the feature array with weight matrix 2. -/
theorem flushed_eq5 (c : Dev nD) (t : Fin cfg0.N) :
    (dat0 V c).flushed 5 t = ((cfg0.win 5).blk t).view.read (Elt Ideal) (product (V c main_arg0) (V c main_arg2)) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz]
  obtain ⟨f00, f01, f10, f11, f20, f21, f30, f31, f40, f41, f50, f51, f60, f61⟩ := idx_facts t
  funext j
  refine k0_pay3_eq (iblk0 V c 0 t) (iblk0 V c 2 t) (V c main_arg0) (V c main_arg2) j (((cfg0.win 5).blk t).view.emb j) (fun k => ?_) (fun k => ?_)
  · show V c main_arg0 (((cfg0.win 0).blk t).view.emb (rowIn j k)) = V c main_arg0 (rowAt (((cfg0.win 5).blk t).view.emb j) k)
    refine congrArg (V c main_arg0) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 256 + 1 * k.val = k.val; omega
  · show V c main_arg2 (((cfg0.win 2).blk t).view.emb (colIn j k)) = V c main_arg2 (colAt (((cfg0.win 5).blk t).view.emb j) k)
    refine congrArg (V c main_arg2) (funext fun a => Fin.ext ?_)
    match a with
    | ⟨0, _⟩ => show win0_2.index t (0 : Fin 2) * 256 + 1 * k.val = k.val; omega
    | ⟨1, _⟩ => show win0_2.index t (1 : Fin 2) * 256 + 1 * (j 1).val = win0_5.index t (1 : Fin 2) * 256 + 1 * (j 1).val; omega

/-- An index of output array 2 lies in point t's block iff, on each axis, it lies in the block's range. -/
theorem mem_blk5 (t : Fin cfg0.N) (i : S100000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v0_1).slice (win0_5.rect t)).set ↔ _
  rw [View.set_slice_whole, Rect.mem_set_unit]
  exact Iff.rfl

/-- Row n lies in the block of point n / 2000, which is written back. -/
theorem covered5 (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨f00, f01, f10, f11, f20, f21, f30, f31, f40, f41, f50, f51, f60, f61⟩ := idx_facts t
  refine ⟨t, flush0_5 t, ?_⟩
  rw [mem_blk5]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- After the last write-back output array 2 is the product of the feature array with weight matrix 2. -/
theorem output_rel1 (c : Dev nD) :
    (dat0 V c).arrAt 5 cfg0.N = product (V c main_arg0) (V c main_arg2) :=
  (dat0 V c).arrAt_eq_of_cover 5 _ (fun t _ => flushed_eq5 V c t) covered5

/-- What point t writes back to output 3 is block t of the product of the feature array with weight matrix 3. -/
theorem flushed_eq6 (c : Dev nD) (t : Fin cfg0.N) :
    (dat0 V c).flushed 6 t = ((cfg0.win 6).blk t).view.read (Elt Ideal) (product (V c main_arg0) (V c main_arg3)) := by
  show (cfg0.win 6).cut (grid0.coords t) ((dat0 V c).after 6 t) = _
  rw [after0_6]
  unfold out0_6
  rw [View.canon_unit_zero hz]
  simp only [View.ld_unit_zero (S := S2000x256) hz, View.ld_unit_zero (S := S256x256) hz]
  obtain ⟨f00, f01, f10, f11, f20, f21, f30, f31, f40, f41, f50, f51, f60, f61⟩ := idx_facts t
  funext j
  refine k0_pay4_eq (iblk0 V c 0 t) (iblk0 V c 3 t) (V c main_arg0) (V c main_arg3) j (((cfg0.win 6).blk t).view.emb j) (fun k => ?_) (fun k => ?_)
  · show V c main_arg0 (((cfg0.win 0).blk t).view.emb (rowIn j k)) = V c main_arg0 (rowAt (((cfg0.win 6).blk t).view.emb j) k)
    refine congrArg (V c main_arg0) (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 256 + 1 * k.val = k.val; omega
  · show V c main_arg3 (((cfg0.win 3).blk t).view.emb (colIn j k)) = V c main_arg3 (colAt (((cfg0.win 6).blk t).view.emb j) k)
    refine congrArg (V c main_arg3) (funext fun a => Fin.ext ?_)
    match a with
    | ⟨0, _⟩ => show win0_3.index t (0 : Fin 2) * 256 + 1 * k.val = k.val; omega
    | ⟨1, _⟩ => show win0_3.index t (1 : Fin 2) * 256 + 1 * (j 1).val = win0_6.index t (1 : Fin 2) * 256 + 1 * (j 1).val; omega

/-- An index of output array 3 lies in point t's block iff, on each axis, it lies in the block's range. -/
theorem mem_blk6 (t : Fin cfg0.N) (i : S100000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v0_2).slice (win0_6.rect t)).set ↔ _
  rw [View.set_slice_whole, Rect.mem_set_unit]
  exact Iff.rfl

/-- Row n lies in the block of point n / 2000, which is written back. -/
theorem covered6 (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨f00, f01, f10, f11, f20, f21, f30, f31, f40, f41, f50, f51, f60, f61⟩ := idx_facts t
  refine ⟨t, flush0_6 t, ?_⟩
  rw [mem_blk6]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 256 ≤ (i 1).val ∧ (i 1).val < win0_6.index t (1 : Fin 2) * 256 + 256
    omega

/-- After the last write-back output array 3 is the product of the feature array with weight matrix 3. -/
theorem output_rel2 (c : Dev nD) :
    (dat0 V c).arrAt 6 cfg0.N = product (V c main_arg0) (V c main_arg3) :=
  (dat0 V c).arrAt_eq_of_cover 6 _ (fun t _ => flushed_eq6 V c t) covered6

end Cert.KernelIdeal.Products

end
-- ==== Proof.Combine.lean ====
/-
  The second region, read as one function of the four arrays it finds.

  Its grid has 50 points; point t handles rows 2000·t … 2000·t + 1999 of the three summand arrays
  [100000, 256] and the whole bias row [1, 256], and writes back the same rows of the output: entry (p, q)
  of the block is max (((h + a₁) + a₂)[p, q] + b[0, q]) 0. The 50 blocks tile the output, so after the last
  write-back the output array is, at every index (n, d),
      max (((h[n, d] + a₁[n, d]) + a₂[n, d]) + b[0, d]) 0.
-/
import proofs.«103481_j49606872269197_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Combine

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The column of an index of a [·, 256] array, as a number below 256. -/
abbrev col (i : S100000x256.Idx) : Fin 256 := ⟨(i 1).val, idx2_lt1 i⟩

/-- The three summands and the bias row added in the body's order, then compared with zero. -/
def rectified (h a1 a2 : S100000x256.Idx → EReal) (b : S1x256.Idx → EReal) : S100000x256.Idx → EReal :=
  fun i => max (((h i + a1 i) + a2 i) + b (ix2 (0 : Fin 1) (col i))) (Ideal.ofBits .f32 0x00000000#32)

/-- The body's arithmetic at entry (p, q) of a block. -/
theorem payload_apply (x0 x1 x2 : Vec Ideal S2000x256 .f32) (x3 : Vec Ideal S1x256 .f32) (p : Fin 2000) (q : Fin 256) :
    k1_pay1 x0 x1 x2 x3 (ix2 p q)
      = max (((x0 (ix2 p q) + x1 (ix2 p q)) + x2 (ix2 p q)) + x3 (ix2 (0 : Fin 1) q)) (Ideal.ofBits .f32 0x00000000#32) := by
  unfold k1_pay1
  simp only [shapeCast_self]
  show max (((x0 (ix2 p q) + x1 (ix2 p q)) + x2 (ix2 p q)) + broadcastTo S2000x256 x3 broadcasts_S1x256_S2000x256 (ix2 p q)) _ = _
  rw [broadcastTo_1b_ab_apply]
  rfl

/-- The same at an entry `y` of a block, when the four loaded blocks are known there as entries of four arrays
    at an array index `i` in the same column. -/
theorem payload_eq (x0 x1 x2 : Vec Ideal S2000x256 .f32) (x3 : Vec Ideal S1x256 .f32)
    (h a1 a2 : S100000x256.Idx → EReal) (b : S1x256.Idx → EReal) (y : S2000x256.Idx) (i : S100000x256.Idx)
    (e0 : x0 y = h i) (e1 : x1 y = a1 i) (e2 : x2 y = a2 i)
    (e3 : x3 (ix2 (0 : Fin 1) (⟨(y 1).val, idx2_lt1 y⟩ : Fin 256)) = b (ix2 (0 : Fin 1) (col i))) :
    k1_pay1 x0 x1 x2 x3 y = rectified h a1 a2 b i := by
  obtain ⟨p, q, rfl⟩ : ∃ (p : Fin 2000) (q : Fin 256), y = ix2 p q := ⟨y 0, y 1, eq_ix2 y⟩
  rw [payload_apply, e0, e1, e2]
  unfold rectified
  rw [← e3]

variable (V : (c : Dev nD) → (b : Ref sig .tc) → Buf (Elt Ideal) ((c : Thread nD τ).loc b))

/-- The printed index maps over the grid: at point t the three summand windows and the output window are at
    block (t, 0), the bias window at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of `rectified` of the four arrays as the region finds them. -/
theorem flushed_eq (c : Dev nD) (t : Fin cfg1.N) :
    (dat1 V c).flushed 4 t = ((cfg1.win 4).blk t).view.read (Elt Ideal)
      (rectified (V c main_v0_0) (V c main_v10) (V c main_v20) (V c main_v21)) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz]
  obtain ⟨f00, f01, f10, f11, f20, f21, f30, f31, f40, f41⟩ := idx_facts t
  funext j
  refine payload_eq (iblk1 V c 0 t) (iblk1 V c 1 t) (iblk1 V c 2 t) (iblk1 V c 3 t)
    (V c main_v0_0) (V c main_v10) (V c main_v20) (V c main_v21) j (((cfg1.win 4).blk t).view.emb j) ?_ ?_ ?_ ?_
  · show V c main_v0_0 (((cfg1.win 0).blk t).view.emb j) = V c main_v0_0 (((cfg1.win 4).blk t).view.emb j)
    refine congrArg (V c main_v0_0) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * (j 1).val = win1_4.index t (1 : Fin 2) * 256 + 1 * (j 1).val; omega
  · show V c main_v10 (((cfg1.win 1).blk t).view.emb j) = V c main_v10 (((cfg1.win 4).blk t).view.emb j)
    refine congrArg (V c main_v10) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 256 + 1 * (j 1).val = win1_4.index t (1 : Fin 2) * 256 + 1 * (j 1).val; omega
  · show V c main_v20 (((cfg1.win 2).blk t).view.emb j) = V c main_v20 (((cfg1.win 4).blk t).view.emb j)
    refine congrArg (V c main_v20) (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 256 + 1 * (j 1).val = win1_4.index t (1 : Fin 2) * 256 + 1 * (j 1).val; omega
  · show V c main_v21 (((cfg1.win 3).blk t).view.emb (ix2 (0 : Fin 1) (⟨(j 1).val, idx2_lt1 j⟩ : Fin 256)))
      = V c main_v21 (ix2 (0 : Fin 1) (col (((cfg1.win 4).blk t).view.emb j)))
    refine congrArg (V c main_v21) (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_4.index t (1 : Fin 2) * 256 + 1 * (j 1).val; omega

/-- An index of the output array lies in point t's block iff, on each axis, it lies in the block's range. -/
theorem mem_blk (t : Fin cfg1.N) (i : S100000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v22).slice (win1_4.rect t)).set ↔ _
  rw [View.set_slice_whole, Rect.mem_set_unit]
  exact Iff.rfl

/-- Row n of the output lies in the block of point n / 2000, which is written back: the 50 blocks tile the array. -/
theorem covered (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨f00, f01, f10, f11, f20, f21, f30, f31, f40, f41⟩ := idx_facts t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- After its last write-back the region's output array is `rectified` of the four arrays the region found. -/
theorem output (c : Dev nD) :
    (dat1 V c).arrAt 4 cfg1.N = rectified (V c main_v0_0) (V c main_v10) (V c main_v20) (V c main_v21) :=
  (dat1 V c).arrAt_eq_of_cover 4 _ (fun t _ => flushed_eq V c t) covered

end Cert.KernelIdeal.Combine

end
-- ==== Proof.Between.lean ====
/-
  The stretch of host operations between the two regions, read at the four arrays the second region takes.

  Whatever the buffers hold when the stretch starts (a valuation `W`), it leaves
    · the first region's scaled output untouched;
    · in each of the two aggregate buffers the rows of a message array gathered along a source list
      (a negative source read as source + 100000) and added into zeros at a destination list — ONE function
      `aggregate` of the message array and the two edge lists;
    · the bias [256] recast as a single row [1, 256].
-/
import proofs.«103481_j49606872269197_1_alg».proof.Proof.Gen.KernelIdeal.Launch
import Idealize.ShloMosaic.Lib.StableHlo.Run

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F] [Cert.KernelIdeal.Facts]

/-- Row n of the result adds up the message rows msg[src[e], ·] over the edges e with dst[e] = n (a negative
    src[e] read as src[e] + 100000): the rows gathered along `src`, then added into zeros at `dst`. -/
def aggregate (msg : FVec F S100000x256 .f32) (src dst : IVec S500000 32) : FVec F S100000x256 .f32 :=
  Host.scatterAdd scatter_S100000x256_S500000x1_S500000x256_1_0_0_1
    (broadcastInDim S100000x256 ![] Facts₀.bcast_S_S100000x256 (constant S_ .f32 0x00000000#32))
    (broadcastInDim S500000x1 ![0] Facts₀.bcast_S500000_S500000x1_0 dst)
    (Host.gather gather_S100000x256_S500000x1_S500000x256_1_0_n_n_0_1_1256 msg
      (broadcastInDim S500000x1 ![0] Facts₀.bcast_S500000_S500000x1_0
        (select (cmpi .slt src (broadcastInDim S500000 ![] Facts₀.bcast_S_S500000 (constantI S_ 32 0#32)))
          (addi src (broadcastInDim S500000 ![] Facts₀.bcast_S_S500000 (constantI S_ 32 100000#32))) src)))

variable (W : Valuation τ sig (Elt F))

/-- The first relation's aggregate buffer. -/
theorem aggregate1 :
    StableHlo.after hostOps1 W (Proc.devRef .tc main_v10)
      = aggregate (W (Proc.devRef .tc main_v0_1)) (W (Proc.devRef .tc main_arg5)) (W (Proc.devRef .tc main_arg6)) := by
  dsimp only [hostOps1]
  after_results
  rfl

set_option maxHeartbeats 1000000 in
/-- The second relation's aggregate buffer. -/
theorem aggregate2 :
    StableHlo.after hostOps1 W (Proc.devRef .tc main_v20)
      = aggregate (W (Proc.devRef .tc main_v0_2)) (W (Proc.devRef .tc main_arg7)) (W (Proc.devRef .tc main_arg8)) := by
  dsimp only [hostOps1]
  after_results_simp
  rfl

/-- The bias as one row. -/
theorem biasRow :
    StableHlo.after hostOps1 W (Proc.devRef .tc main_v21)
      = shapeCast S1x256 (W (Proc.devRef .tc main_arg4)) Facts₀.shapeCasts_S256_S1x256 := by
  dsimp only [hostOps1]
  after_results
  rfl

/-- The scaled self output is not written. -/
theorem selfKept :
    StableHlo.after hostOps1 W (Proc.devRef .tc main_v0_0) = W (Proc.devRef .tc main_v0_0) := by
  dsimp only [hostOps1]
  after_results

end Cert.KernelIdeal.Between

end
-- ==== Proof.Bridge.lean ====
/-
  The layer (the reference's function of the nine arguments) and the kernel program's composition of its two
  regions with the host stretch between them are ONE function.

  Index by index: the host's matrix product is the sum over k of x[n, k] · W[k, d], which is what each output
  block of the first region holds; the aggregation is the same function of the message array and the edge
  lists on both sides; the bias laid along the rows reads b[d] where the second region reads the bias row at
  (0, d); and comparing with zero twice is comparing once (max (max y 0) 0 = max y 0). Only sums and a maximum
  of extended reals occur, in the same order on both sides, so no entry needs to be finite.
-/
import proofs.«103481_j49606872269197_1_alg».proof.Proof.Layer
import proofs.«103481_j49606872269197_1_alg».proof.Proof.Gen.ReferenceIdeal.Read
import proofs.«103481_j49606872269197_1_alg».proof.Proof.Products
import proofs.«103481_j49606872269197_1_alg».proof.Proof.Combine
import proofs.«103481_j49606872269197_1_alg».proof.Proof.Between
import Idealize.ShloMosaic.Lib.ValueLayout

noncomputable section

namespace Cert.Layer

open Idealize.ShloMosaic Idealize.ShloMosaic.ValueIdx

variable [Cert.ReferenceIdeal.Facts] [Cert.KernelIdeal.Facts]

/-- The host's product at an index is the plain sum. -/
theorem project_eq (x : Feat) (W : Weight) : project x W = Cert.KernelIdeal.Products.product x W :=
  funext fun i => Cert.ReferenceIdeal.Read.val_main_v0_apply x W i

/-- Both programs aggregate by the same function. -/
theorem aggregate_eq (msg : Feat) (src dst : Edges) :
    aggregate msg src dst = Cert.KernelIdeal.Between.aggregate (F := Ideal) msg src dst := rfl

/-- The zero array reads the zero word everywhere. -/
theorem zeros_apply (i : Cert.ReferenceIdeal.S100000x256.Idx) : zeros i = Ideal.ofBits .f32 0x00000000#32 :=
  Cert.ReferenceIdeal.Read.val_main_v11_apply (F := Ideal) i

/-- The self term at an index: the constant times the plain sum. -/
theorem selfTerm_apply (x : Feat) (W : Weight) (i : Cert.ReferenceIdeal.S100000x256.Idx) :
    selfTerm x W i = Cert.KernelIdeal.Products.scaledProduct x W i := by
  unfold selfTerm Cert.KernelIdeal.Products.scaledProduct
  rw [project_eq]
  show Cert.ReferenceIdeal.Read.val_main_v1 (F := Ideal) i * _ = _
  rw [Cert.ReferenceIdeal.Read.val_main_v1_apply]
  rfl

/-- The bias laid along the rows reads, at (n, d), the single bias row at (0, d). -/
theorem biasRows_apply (b : Bias) (i : Cert.ReferenceIdeal.S100000x256.Idx) :
    biasRows b i = shapeCast Cert.KernelIdeal.S1x256 b Cert.KernelIdeal.Facts₀.shapeCasts_S256_S1x256
      (ix2 (0 : Fin 1) (Cert.KernelIdeal.Combine.col i)) := by
  rw [shapeCast_a_1a_apply]
  show Cert.ReferenceIdeal.Read.val_main_v28 (F := Ideal) b i = _
  rw [Cert.ReferenceIdeal.Read.val_main_v28_apply, Cert.ReferenceIdeal.Read.val_main_v27_apply]
  exact congrArg b (funext fun a => match a with | ⟨0, _⟩ => rfl)

/-- The layer is the second region's function of the first region's three products, aggregated, and the bias row. -/
theorem layer_eq (x : Feat) (Ws W1 W2 : Weight) (b : Bias) (src1 dst1 src2 dst2 : Edges) :
    layer x Ws W1 W2 b src1 dst1 src2 dst2
      = Cert.KernelIdeal.Combine.rectified (Cert.KernelIdeal.Products.scaledProduct x Ws)
          (Cert.KernelIdeal.Between.aggregate (F := Ideal) (Cert.KernelIdeal.Products.product x W1) src1 dst1)
          (Cert.KernelIdeal.Between.aggregate (F := Ideal) (Cert.KernelIdeal.Products.product x W2) src2 dst2)
          (shapeCast Cert.KernelIdeal.S1x256 b Cert.KernelIdeal.Facts₀.shapeCasts_S256_S1x256) := by
  funext i
  unfold layer Cert.KernelIdeal.Combine.rectified
  show max (max (((selfTerm x Ws i + aggregate (project x W1) src1 dst1 i) + aggregate (project x W2) src2 dst2 i) + biasRows b i) (zeros i)) (zeros i) = _
  rw [zeros_apply, max_assoc, max_self, selfTerm_apply, project_eq, project_eq, aggregate_eq, aggregate_eq, biasRows_apply]

end Cert.Layer

end
-- ==== Proof.Whole.lean ====
/-
  The kernel program's result, as the layer of its nine arguments.

  The run ends with the result buffer at the second region's output array. That array is the second region's
  function of the four arrays the region found; those are what the host stretch left: the first region's scaled
  product untouched, the two aggregates of the first region's plain products along the edge lists, and the bias
  as one row. The first region's arrays are the products of the launch arguments, which nothing before it has
  written. Composed, this is the layer.
-/
import proofs.«103481_j49606872269197_1_alg».proof.Proof.RunNamed
import proofs.«103481_j49606872269197_1_alg».proof.Proof.Bridge

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The scaled self product reaches the second region as the first region left it. -/
theorem self_eq (c : Dev nD) :
    V2 m ρ c main_v0_0
      = Products.scaledProduct (m ((c.tc : Thread nD τ).loc main_arg0)) (m ((c.tc : Thread nD τ).loc main_arg1)) :=
  calc V2 m ρ c main_v0_0
    _ = W1 m ρ c (Proc.devRef .tc main_v0_0) := Between.selfKept (W1 m ρ c)
    _ = (dat0 (V0 m ρ) c).arrAt 4 cfg0.N := W1_arr m ρ c 4
    _ = _ := Products.output_self (V0 m ρ) c

/-- The first relation's messages after the first region. -/
theorem msg1_eq (c : Dev nD) :
    W1 m ρ c (Proc.devRef .tc main_v0_1)
      = Products.product (m ((c.tc : Thread nD τ).loc main_arg0)) (m ((c.tc : Thread nD τ).loc main_arg2)) :=
  (W1_arr m ρ c 5).trans (Products.output_rel1 (V0 m ρ) c)

/-- The second relation's messages after the first region. -/
theorem msg2_eq (c : Dev nD) :
    W1 m ρ c (Proc.devRef .tc main_v0_2)
      = Products.product (m ((c.tc : Thread nD τ).loc main_arg0)) (m ((c.tc : Thread nD τ).loc main_arg3)) :=
  (W1_arr m ρ c 6).trans (Products.output_rel2 (V0 m ρ) c)

/-- The first relation's aggregate reaches the second region. -/
theorem agg1_eq (c : Dev nD) :
    V2 m ρ c main_v10
      = Between.aggregate (F := Ideal) (Products.product (m ((c.tc : Thread nD τ).loc main_arg0)) (m ((c.tc : Thread nD τ).loc main_arg2)))
          (m ((c.tc : Thread nD τ).loc main_arg5)) (m ((c.tc : Thread nD τ).loc main_arg6)) := by
  refine (Between.aggregate1 (W1 m ρ c)).trans ?_
  rw [msg1_eq m ρ c, W1_of_ne m ρ c main_arg5 (by decide), W1_of_ne m ρ c main_arg6 (by decide)]

/-- The second relation's aggregate reaches the second region. -/
theorem agg2_eq (c : Dev nD) :
    V2 m ρ c main_v20
      = Between.aggregate (F := Ideal) (Products.product (m ((c.tc : Thread nD τ).loc main_arg0)) (m ((c.tc : Thread nD τ).loc main_arg3)))
          (m ((c.tc : Thread nD τ).loc main_arg7)) (m ((c.tc : Thread nD τ).loc main_arg8)) := by
  refine (Between.aggregate2 (W1 m ρ c)).trans ?_
  rw [msg2_eq m ρ c, W1_of_ne m ρ c main_arg7 (by decide), W1_of_ne m ρ c main_arg8 (by decide)]

/-- The bias reaches the second region as one row. -/
theorem bias_eq (c : Dev nD) :
    V2 m ρ c main_v21 = shapeCast S1x256 (m ((c.tc : Thread nD τ).loc main_arg4)) Facts₀.shapeCasts_S256_S1x256 := by
  refine (Between.biasRow (W1 m ρ c)).trans ?_
  rw [W1_of_ne m ρ c main_arg4 (by decide)]

/-- The second region's output array after its last write-back is the layer of the launch arguments. -/
theorem result_eq (c : Dev nD) :
    (dat1 (V2 m ρ) c).arrAt 4 cfg1.N
      = Cert.Layer.layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [Combine.output (V2 m ρ) c, self_eq m ρ c, agg1_eq m ρ c, agg2_eq m ρ c, bias_eq m ρ c]
  exact (Cert.Layer.layer_eq _ _ _ _ _ _ _ _ _).symm

/-- Every weakly fair execution of the kernel program terminates without a fault with the result buffer at the
    layer of the launch arguments and the arguments as launched. -/
theorem run : θ_run defs (onTc (τ := τ) (main (F := Ideal))) ⟨m, fun _ => 0, ρ⟩ (fun r => ∀ c : Dev nD,
      r.2.mem ((c.tc : Thread nD τ).loc main_v22)
        = Cert.Layer.layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (RunValue.run m ρ)

end Cert.KernelIdeal.Whole

end
-- ==== Proof.lean ====
/-
  A graph layer on 100000 nodes with 256 features: a kernel program of two pipelined regions (three matrix
  products of the feature array, block by block; then a pointwise sum, bias and rectifier, block by block) with
  a gather and a scatter-add on the host between them, against a reference that does the same with whole-array
  host operations. On the extended reals both compute, at every node n and feature d,

      max (1.1 · (x·W_self)[n, d] + A₁[n, d] + A₂[n, d] + b[d]) 0,

  A_r the sum of the message rows (x·W_r)[src_r[e], ·] over the edges e with dst_r[e] = n.

  Why they agree: a matrix product computed on blocks of 2000 rows is, entry by entry, the same sum over k as
  the whole product (the rounding to a shorter format on the way in is the identity on the extended reals, and
  the zero accumulator adds nothing); the 50 blocks tile each array; the gather and scatter-add are the same
  function of the same arrays in both programs; the four summands are added in the same order; and the
  reference's second rectifier changes nothing, max (max y 0) 0 = max y 0. No step needs an entry to be finite.

  The three frame claims are the programs' runs with the result forgotten; the idealization rewrote nothing.
-/
import proofs.«103481_j49606872269197_1_alg».proof.Defs
import proofs.«103481_j49606872269197_1_alg».proof.Proof.Gen.Kernel
import proofs.«103481_j49606872269197_1_alg».proof.Proof.Gen.Kernel.Skeleton
import proofs.«103481_j49606872269197_1_alg».proof.Proof.Gen.Kernel.Launch
import proofs.«103481_j49606872269197_1_alg».proof.Proof.Gen.Kernel.Points
import proofs.«103481_j49606872269197_1_alg».proof.Proof.Gen.Kernel.Frame
import proofs.«103481_j49606872269197_1_alg».proof.Proof.Gen.KernelIdeal
import proofs.«103481_j49606872269197_1_alg».proof.Proof.Gen.KernelIdeal.Skeleton
import proofs.«103481_j49606872269197_1_alg».proof.Proof.Gen.KernelIdeal.Launch
import proofs.«103481_j49606872269197_1_alg».proof.Proof.Gen.KernelIdeal.Points
import proofs.«103481_j49606872269197_1_alg».proof.Proof.Gen.KernelIdeal.Frame
import proofs.«103481_j49606872269197_1_alg».proof.Proof.Gen.ReferenceIdeal
import proofs.«103481_j49606872269197_1_alg».proof.Proof.Gen.ReferenceIdeal.Run
import proofs.«103481_j49606872269197_1_alg».proof.Proof.Gen.ReferenceIdeal.Read
import proofs.«103481_j49606872269197_1_alg».proof.Proof.Gen.Pre_finite_inputs
import proofs.«103481_j49606872269197_1_alg».proof.Proof.Whole
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the result at the layer of those
    arguments: the kernel program by its two regions and the host stretch composed, the reference because the
    layer is its operations' composed term. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
